-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768x768 : Shape := ⟨3, ![32, 768, 768]⟩
abbrev S768x768 : Shape := ⟨2, ![768, 768]⟩
abbrev S_ : Shape := ⟨0, ![]⟩

class Facts : Prop where
  bcast_S_S32x768x768 : S_.BroadcastsInDim S32x768x768 (![] : Fin 0 → Fin S32x768x768.rank)
  reducesTo_S32x768x768_S_d0_1_2 : S32x768x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_

variable [Facts]

def fn_part1 {F : FTy → Type} [FloatOps F] (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  main_v18

def fn {F : FTy → Type} [FloatOps F] (main_arg0 : FVec F S32x768x768 .f32) (main_arg1 : FVec F S32x768x768 .f32) (main_arg2 : FVec F S768x768 .f32) (main_arg3 : FVec F S768x768 .f32) : IVec S_ 1 :=
  let main_v0 : FVec F S32x768x768 .f32 := Host.absf main_arg0
  let main_cst : FVec F S_ .f32 := constant S_ .f32 0x7F800000#32
  let main_v1 : FVec F S32x768x768 .f32 := broadcastInDim S32x768x768 ![] bcast_S_S32x768x768 main_cst
  let main_v2 : IVec S32x768x768 1 := cmpf .olt main_v0 main_v1
  let main_c : IVec S_ 1 := constantI S_ 1 1#1
  let main_v3 : IVec S_ 1 := (fun x v => Host.reduce IntOp.andi x v reducesTo_S32x768x768_S_d0_1_2 h_S_) main_v2 main_c
  let main_v4 : FVec F S32x768x768 .f32 := Host.absf main_arg1
  let main_cst_0 : FVec F S_ .f32 := constant S_ .f32 0x7F800000#32
  let main_v5 : FVec F S32x768x768 .f32 := broadcastInDim S32x768x768 ![] bcast_S_S32x768x768 main_cst_0
  let main_v6 : IVec S32x768x768 1 := cmpf .olt main_v4 main_v5
  let main_c_1 : IVec S_ 1 := constantI S_ 1 1#1
  let main_v7 : IVec S_ 1 := (fun x v => Host.reduce IntOp.andi x v reducesTo_S32x768x768_S_d0_1_2 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_v13 main_v16
-- ==== Kernel.lean ====
abbrev S32x768x768 : Shape := ⟨3, ![32, 768, 768]⟩
abbrev S768x768 : Shape := ⟨2, ![768, 768]⟩
abbrev S1x768x768 : Shape := ⟨3, ![1, 768, 768]⟩
abbrev S768 : Shape := ⟨1, ![768]⟩
abbrev S768x1 : Shape := ⟨2, ![768, 1]⟩

abbrev nBuf : Space → Nat
  | .hbm => 5
  | .vmem => 8
  | .smem => 0
  | _ => 0

abbrev bufTy : (tb : Table) → Fin (tcTables nBuf tb) → BufTy
  | .hbm, ⟨0, _⟩ => ⟨S32x768x768, .f32⟩
  | .hbm, ⟨1, _⟩ => ⟨S32x768x768, .f32⟩
  | .hbm, ⟨2, _⟩ => ⟨S768x768, .f32⟩
  | .hbm, ⟨3, _⟩ => ⟨S768x768, .f32⟩
  | .hbm, ⟨4, _⟩ => ⟨S32x768x768, .f32⟩
  | .local _ .vmem, ⟨0, _⟩ => ⟨S1x768x768, .f32⟩
  | .local _ .vmem, ⟨1, _⟩ => ⟨S1x768x768, .f32⟩
  | .local _ .vmem, ⟨2, _⟩ => ⟨S1x768x768, .f32⟩
  | .local _ .vmem, ⟨3, _⟩ => ⟨S1x768x768, .f32⟩
  | .local _ .vmem, ⟨4, _⟩ => ⟨S768x768, .f32⟩
  | .local _ .vmem, ⟨5, _⟩ => ⟨S768x768, .f32⟩
  | .local _ .vmem, ⟨6, _⟩ => ⟨S1x768x768, .f32⟩
  | .local _ .vmem, ⟨7, _⟩ => ⟨S1x768x768, .f32⟩
  | _, _ => ⟨S32x768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x768x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x768x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  reduces_S768x768_S768 : S768x768.Reduces [1] S768
  shapeCasts_S768_S768x1 : S768.ShapeCasts S768x1
  broadcasts_S768x1_S768x768 : S768x1.Broadcasts S768x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S1x768x768 : S768x768.ShapeCasts S1x768x768
  dot_S768x768_S768x768_S768x768_1_0_0_1_n_n_wf : DotDims.WF S768x768 S768x768 S768x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x768.size a ≤ S32x768x768.size a
  hwx0_0 : ∀ i : grid0.Coords, EltTy.bits .f32 = 32 ∨ (Rect.block (s := S32x768x768) S1x768x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x768x768.size a ≤ S32x768x768.size a
  hwx0_1 : ∀ i : grid0.Coords, EltTy.bits .f32 = 32 ∨ (Rect.block (s := S32x768x768) S1x768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x768x768.size a ≤ S32x768x768.size a
  hwx0_4 : ∀ i : grid0.Coords, EltTy.bits .f32 = 32 ∨ (Rect.block (s := S32x768x768) S1x768x768.size (cc0_transform_4 i) (hinb0_4 i)).WholeWords (EltTy.packing .f32)

variable [Facts₀]

def dot_S768x768_S768x768_S768x768_1_0_0_1_n_n : DotDims S768x768 S768x768 S768x768 where
  lhsContracting := [1]
  rhsContracting := [0]
  lhsNonContracting := [0]
  rhsNonContracting := [1]
  lhsBatch := []
  rhsBatch := []
  wf := dot_S768x768_S768x768_S768x768_1_0_0_1_n_n_wf

abbrev win0_0 : Pipeline.Window sig grid0 :=
  Pipeline.Window.ofSpec (Memref.whole main_arg0) S1x768x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x768x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x768x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x768x768 : Shape := ⟨3, ![32, 768, 768]⟩
abbrev S768x768 : Shape := ⟨2, ![768, 768]⟩
abbrev S_ : Shape := ⟨0, ![]⟩
abbrev S32x768 : Shape := ⟨2, ![32, 768]⟩
abbrev S32x768x1 : Shape := ⟨3, ![32, 768, 1]⟩

abbrev nBuf : Space → Nat
  | .hbm => 31
  | .vmem => 0
  | .smem => 0
  | _ => 0

abbrev bufTy : (tb : Table) → Fin (tcTables nBuf tb) → BufTy
  | .hbm, ⟨0, _⟩ => ⟨S32x768x768, .f32⟩
  | .hbm, ⟨1, _⟩ => ⟨S32x768x768, .f32⟩
  | .hbm, ⟨2, _⟩ => ⟨S768x768, .f32⟩
  | .hbm, ⟨3, _⟩ => ⟨S768x768, .f32⟩
  | .hbm, ⟨4, _⟩ => ⟨S_, .f32⟩
  | .hbm, ⟨5, _⟩ => ⟨S32x768, .f32⟩
  | .hbm, ⟨6, _⟩ => ⟨S32x768x1, .f32⟩
  | .hbm, ⟨7, _⟩ => ⟨S_, .f32⟩
  | .hbm, ⟨8, _⟩ => ⟨S32x768x1, .f32⟩
  | .hbm, ⟨9, _⟩ => ⟨S32x768x1, .i1⟩
  | .hbm, ⟨10, _⟩ => ⟨S_, .f32⟩
  | .hbm, ⟨11, _⟩ => ⟨S32x768x1, .f32⟩
  | .hbm, ⟨12, _⟩ => ⟨S32x768x1, .f32⟩
  | .hbm, ⟨13, _⟩ => ⟨S_, .f32⟩
  | .hbm, ⟨14, _⟩ => ⟨S_, .f32⟩
  | .hbm, ⟨15, _⟩ => ⟨S32x768x1, .f32⟩
  | .hbm, ⟨16, _⟩ => ⟨S32x768x1, .f32⟩
  | .hbm, ⟨17, _⟩ => ⟨S32x768x768, .f32⟩
  | .hbm, ⟨18, _⟩ => ⟨S32x768x768, .f32⟩
  | .hbm, ⟨19, _⟩ => ⟨S32x768x768, .f32⟩
  | .hbm, ⟨20, _⟩ => ⟨S32x768x768, .f32⟩
  | .hbm, ⟨21, _⟩ => ⟨S32x768x768, .f32⟩
  | .hbm, ⟨22, _⟩ => ⟨S32x768x768, .f32⟩
  | .hbm, ⟨23, _⟩ => ⟨S_, .f32⟩
  | .hbm, ⟨24, _⟩ => ⟨S_, .f32⟩
  | .hbm, ⟨25, _⟩ => ⟨S32x768x768, .f32⟩
  | .hbm, ⟨26, _⟩ => ⟨S32x768x768, .i1⟩
  | .hbm, ⟨27, _⟩ => ⟨S_, .f32⟩
  | .hbm, ⟨28, _⟩ => ⟨S32x768x768, .f32⟩
  | .hbm, ⟨29, _⟩ => ⟨S32x768x768, .f32⟩
  | .hbm, ⟨30, _⟩ => ⟨S32x768x768, .f32⟩
  | _, _ => ⟨S32x768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v13 : Ref sig .tc := ⟨.hbm, 30, rfl⟩

abbrev nD : Nat := 1
abbrev τ : Topo := Topo.v7x

variable {F : FTy → Type} [FloatOps F]

class Facts₀ : Prop where
  reducesTo_S32x768x768_S32x768_d2 : S32x768x768.ReducesTo [2] S32x768
  h_S_ : 0 < S_.numel
  bcast_S32x768_S32x768x1_0_1 : S32x768.BroadcastsInDim S32x768x1 (![0, 1] : Fin 2 → Fin S32x768x1.rank)
  bcast_S_S32x768x1 : S_.BroadcastsInDim S32x768x1 (![] : Fin 0 → Fin S32x768x1.rank)
  bcast_S32x768x1_S32x768x768_0_1_2 : S32x768x1.BroadcastsInDim S32x768x768 (![0, 1, 2] : Fin 3 → Fin S32x768x768.rank)
  bcast_S_S32x768x768 : S_.BroadcastsInDim S32x768x768 (![] : Fin 0 → Fin S32x768x768.rank)
  dot_S32x768x768_S768x768_S32x768x768_2_0_01_1_n_n_wf : DotDims.WF S32x768x768 S768x768 S32x768x768 [2] [0] [0, 1] [1] [] []
  dot_S32x768x768_S32x768x768_S32x768x768_2_1_1_2_0_0_wf : DotDims.WF S32x768x768 S32x768x768 S32x768x768 [2] [1] [1] [2] [0] [0]

variable [Facts₀]

def dot_S32x768x768_S768x768_S32x768x768_2_0_01_1_n_n : DotDims S32x768x768 S768x768 S32x768x768 where
  lhsContracting := [2]
  rhsContracting := [0]
  lhsNonContracting := [0, 1]
  rhsNonContracting := [1]
  lhsBatch := []
  rhsBatch := []
  wf := dot_S32x768x768_S768x768_S32x768x768_2_0_01_1_n_n_wf
def dot_S32x768x768_S32x768x768_S32x768x768_2_1_1_2_0_0 : DotDims S32x768x768 S32x768x768 S32x768x768 where
  lhsContracting := [2]
  rhsContracting := [1]
  lhsNonContracting := [1]
  rhsNonContracting := [2]
  lhsBatch := [0]
  rhsBatch := [0]
  wf := dot_S32x768x768_S32x768x768_S32x768x768_2_1_1_2_0_0_wf

class Facts : Prop extends Facts₀ where

variable [Facts]
-- ==== Proof.GnnSpec.lean ====
/-
  One layer of a graph network, entry by entry, over the extended reals.

  For each of 32 graphs the layer takes the node features `X` (768 nodes, 768 features), the edge weights `A`
  (768 × 768) and two weight matrices `W`, `W₁`. Each row of `A` is divided by its sum (a row whose sum is zero is
  multiplied by zero instead); the messages are `X · W₁`; node `n` gathers the messages of the nodes `m` weighted by
  the normalised `A n m`; to that is added the node's own transform `X · W`; and the result passes through a leaky
  rectifier of slope `0.01`.  Written out at graph `b`, node `n`, feature `d`:

    h = Σₖ X b n k · W k d  +  Σₘ (A b n m · r b n) · (Σₖ X b m k · W₁ k d),   r b n = 0 if Σₖ A b n k = 0, else 1 / Σₖ A b n k

  and the output is `h` where `0 < h`, `0.01 · h` elsewhere.  Every sum is a finite sum in the commutative monoid of
  the extended reals, so no statement here needs the entries to be finite.
-/
import Idealize.ShloMosaic.PureOps.Ideal
import Idealize.ShloMosaic.PureOps.Ideal.Laws
import Idealize.ShloMosaic.Lib.ValueIdx

noncomputable section

open scoped BigOperators

namespace Cert.Gnn

open Idealize.ShloMosaic Idealize.ShloMosaic.ValueIdx

/-- The shape of `g` stacked per-graph arrays of 768 × 768 (the programs' arrays have `g = 32`; one graph's block has `g = 1`). -/
abbrev T3 (g : ℕ) : Shape := ⟨3, ![g, 768, 768]⟩
/-- The shape of a weight matrix. -/
abbrev T2 : Shape := ⟨2, ![768, 768]⟩

/-- The f32 word of zero, of one, and of the rectifier's slope (the nearest f32 to 0.01), as extended reals. -/
abbrev zeroW : EReal := Ideal.ofBits .f32 0x00000000#32
abbrev oneW : EReal := Ideal.ofBits .f32 0x3F800000#32
abbrev slopeW : EReal := Ideal.ofBits .f32 0x3C23D70A#32

/-- The sum of row `n` of graph `b`'s edge weights. -/
def rowSum {g : ℕ} (A : (T3 g).Idx → EReal) (b : Fin g) (n : Fin 768) : EReal := ∑ k : Fin 768, A (ix3 b n k)

/-- The factor row `n` is normalised by: zero when the row sums to zero, the reciprocal of the sum otherwise. -/
def rowInv {g : ℕ} (A : (T3 g).Idx → EReal) (b : Fin g) (n : Fin 768) : EReal :=
  Scalar.select (Ideal.cmp .oeq (rowSum A b n) zeroW) zeroW (Ideal.div oneW (rowSum A b n))

/-- Node `n`'s features through a weight matrix, at feature `d`. -/
def proj {g : ℕ} (X : (T3 g).Idx → EReal) (W : T2.Idx → EReal) (b : Fin g) (n d : Fin 768) : EReal :=
  ∑ k : Fin 768, X (ix3 b n k) * W (ix2 k d)

/-- What node `n` gathers: its neighbours' messages weighted by the normalised edge weights. -/
def gathered {g : ℕ} (A X : (T3 g).Idx → EReal) (W1 : T2.Idx → EReal) (b : Fin g) (n d : Fin 768) : EReal :=
  ∑ m : Fin 768, (A (ix3 b n m) * rowInv A b n) * proj X W1 b m d

/-- The leaky rectifier with the strict test: `h` where `0 < h`, the slope times `h` elsewhere. -/
def leaky (h : EReal) : EReal := Scalar.select (Ideal.cmp .ogt h zeroW) h (slopeW * h)

/-- The layer's output at graph `b`, node `n`, feature `d`. -/
def layerAt {g : ℕ} (X A : (T3 g).Idx → EReal) (W W1 : T2.Idx → EReal) (b : Fin g) (n d : Fin 768) : EReal :=
  leaky (proj X W b n d + gathered A X W1 b n d)

/-- The layer's output array. -/
def layer {g : ℕ} (X A : (T3 g).Idx → EReal) (W W1 : T2.Idx → EReal) : (T3 g).Idx → EReal :=
  fun i => layerAt X A W W1 (i 0) (i 1) (i 2)

theorem layer_ix3 {g : ℕ} (X A : (T3 g).Idx → EReal) (W W1 : T2.Idx → EReal) (b : Fin g) (n d : Fin 768) :
    layer X A W W1 (ix3 b n d) = layerAt X A W W1 b n d := rfl

/-- The layer at one graph depends on that graph's rows only: two stacks whose graphs `b'` and `b` hold the same
    features and the same edge weights give the same output there. -/
theorem layerAt_congr {g g' : ℕ} (X A : (T3 g).Idx → EReal) (X' A' : (T3 g').Idx → EReal) (W W1 : T2.Idx → EReal)
    (b : Fin g) (b' : Fin g') (hX : ∀ n k, X' (ix3 b' n k) = X (ix3 b n k)) (hA : ∀ n k, A' (ix3 b' n k) = A (ix3 b n k))
    (n d : Fin 768) : layerAt X' A' W W1 b' n d = layerAt X A W W1 b n d := by
  unfold layerAt gathered rowInv rowSum proj
  simp only [hX, hA]

/-- The rectifier with the weak test `0 ≤ h` is the same function: the two tests differ only at `h = 0`, where one
    branch gives `0` and the other the slope times `0`, which is `0`. -/
theorem leaky_of_ge (h : EReal) : Scalar.select (Ideal.cmp .oge h zeroW) h (slopeW * h) = leaky h := by
  have hz : zeroW = 0 := Ideal.ofBits_zero_f32
  unfold leaky Scalar.select Ideal.cmp
  rw [hz]
  by_cases h1 : (0 : EReal) < h
  · have h2 : (0 : EReal) ≤ h := le_of_lt h1
    simp [h1, h2]
  · by_cases h2 : (0 : EReal) ≤ h
    · have h3 : h = 0 := le_antisymm (not_lt.mp h1) h2
      subst h3
      simp
    · simp [h1, h2]

end Cert.Gnn

end
-- ==== Proof.LibGram.lean ====
/-
  Readings, at an entry, of the operations a table of distances between the rows of two arrays is built from, for any
  sizes.

  The squared distance between row `a` of one array and row `b` of another is the sum of the two rows' squared norms
  minus twice their inner product. A kernel keeps the first array's squared norms as a column (a length-`a` vector cast
  to `a × 1`), and takes the inner products by a matrix product that contracts one axis of each operand. The lemmas
  below read these two operations at an entry; the last one is the law by which halving a negated number is multiplying
  the number by minus one half, on every extended real.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Lib.Gram

open Idealize.ShloMosaic Idealize.ShloMosaic.ValueIdx

variable {α : Type}

/-- A length-`a` vector cast to an `a × 1` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A matrix product accumulated into zero whose dimension numbers contract ONE axis, of extent `k`, reads at an
    output entry `j` the sum over that axis's coordinate `c` of the products of the two operands at the entries
    `li c` and `ri c` the dimension numbers pair with `j` and `c`. -/
theorem matmul_zero_single_apply {sl sr so : Shape} {φ₁ φ₂ : FTy} (D : DotDims sl sr so) (k : ℕ)
    (hrank : D.contr.rank = 1) (hsize : D.contr.size ⟨0, by omega⟩ = k) (prec : Option ContractPrecision)
    (A : FVec Ideal sl φ₁) (B : FVec Ideal sr φ₂) (j : so.Idx) (li : Fin k → sl.Idx) (ri : Fin k → sr.Idx)
    (hl : ∀ c, D.lhsIdx j ((contrEquiv1 D k hrank hsize).symm c) = li c)
    (hr : ∀ c, D.rhsIdx j ((contrEquiv1 D k hrank hsize).symm c) = ri c) :
    matmul D prec A B (constant so .f32 0x00000000#32) j = ∑ c : Fin k, A (li c) * B (ri c) := by
  show FloatOps.matmul D prec A B _ j = _
  rw [Ideal.matmul_constant_zero_apply, ← Equiv.sum_comp (contrEquiv1 D k hrank hsize).symm]
  exact Finset.sum_congr rfl fun c _ => by rw [hl c, hr c]

/-- Halving the negation of an extended real is multiplying it by minus one half: division by the real `2` is the
    product with `1/2`, and a sign moves freely across a product — also at the two infinities. -/
theorem div_neg_two (d : EReal) : Ideal.div (-d) ((2 : ℝ) : EReal) = d * ((-(1 / 2) : ℝ) : EReal) := by
  rw [Ideal.div_coe (by norm_num : (2 : ℝ) ≠ 0), EReal.coe_neg, mul_neg, neg_mul]

end Cert.Lib.Gram

end
-- ==== Proof.LibRowOps.lean ====
/-
  Two readings, at an entry, of operations on the rows of a matrix, for any sizes.

  A sum along the lanes of an `n × k` array gives one number per row: at row `r` it is the sum of that row's `k`
  entries.  An `a × 1` column spread over `b` lanes repeats each row's one entry along the row: at `(p, c)` it reads
  the column's entry of row `p`, whatever the lane `c` (also when `a = 1`).
-/
import Idealize.ShloMosaic.Lib.Pipeline.Value
import Idealize.ShloMosaic.Lib.ValueIdx
import Idealize.ShloMosaic.PureOps.Ideal.Laws

noncomputable section

open scoped BigOperators

namespace Cert.Lib.RowOps

open Idealize.ShloMosaic Idealize.ShloMosaic.ValueIdx

/-- A sum along the lanes of an `n × k` array from the zero word reads, at row `r`, the sum of that row's entries. -/
theorem laneSum_apply {n k : ℕ} (src : FVec Ideal ⟨2, ![n, k]⟩ .f32) (h : (⟨2, ![n, k]⟩ : Shape).Reduces [1] ⟨1, ![n]⟩)
    (hφ : FKind.Formats .f32) (hacc : (0x00000000#32 : BitVec 32) = 0x00000000#32) (r : Fin n) :
    multiReduction .add [1] ⟨1, ![n]⟩ src 0x00000000#32 h hφ hacc (ix1 r) = ∑ c : Fin k, src (ix2 r c) := by
  refine (Ideal.multiReduction_add_single src 0x00000000#32 h hφ hacc (ix1 r)).trans ?_
  exact Finset.sum_congr rfl fun c _ => congrArg src (funext fun ax => Fin.ext (by
    match ax with
    | ⟨0, _⟩ => rfl
    | ⟨1, _⟩ => rfl))

/-- An `a × 1` column spread over `b` lanes reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.RowOps

end
-- ==== Proof.GnnBlock.lean ====
/-
  What the kernel's body computes for one graph, entry by entry.

  At a grid point the body holds one graph's features and edge weights as 1 × 768 × 768 blocks and the two weight
  matrices whole.  It sums each row of the edge weights along the lanes, keeps the sums as a column, takes the
  normalising factor (zero where the sum is zero, the reciprocal elsewhere), spreads it back over the row and
  multiplies; three matrix products into zero accumulators give the messages, the gathered messages and the node's own
  transform; their sum passes through the rectifier and is stored as a 1 × 768 × 768 block.  Changes of float format
  are the identity over the extended reals.  Read at entry `(p, q)` this is the layer of the specification at the
  one-graph stack made of the two blocks.
-/
import proofs.«157005_j1254130450915_1_alg».proof.Proof.Gen.KernelIdeal.Skeleton
import proofs.«157005_j1254130450915_1_alg».proof.Proof.GnnSpec
import proofs.«157005_j1254130450915_1_alg».proof.Proof.LibGram
import proofs.«157005_j1254130450915_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx Cert.Gnn Cert.Lib.RowOps

/-! ## The body's matrix product at an entry -/

/-- The axis of the left operand that is kept: the output's row. -/
theorem lhs_row (i : S768x768.Idx) (q : dot_S768x768_S768x768_S768x768_1_0_0_1_n_n.contr.Idx) :
    (dot_S768x768_S768x768_S768x768_1_0_0_1_n_n.lhsIdx i q 0).val = (i 0).val := by
  unfold DotDims.lhsIdx
  rw [dif_neg (show ¬(0 : Fin S768x768.rank) ∈ dot_S768x768_S768x768_S768x768_1_0_0_1_n_n.lhsBatch by decide),
    dif_pos (show (0 : Fin S768x768.rank) ∈ dot_S768x768_S768x768_S768x768_1_0_0_1_n_n.lhsNonContracting by decide)]
  rfl

/-- The axis of the right operand that is kept: the output's column. -/
theorem rhs_col (i : S768x768.Idx) (q : dot_S768x768_S768x768_S768x768_1_0_0_1_n_n.contr.Idx) :
    (dot_S768x768_S768x768_S768x768_1_0_0_1_n_n.rhsIdx i q 1).val = (i 1).val := by
  unfold DotDims.rhsIdx
  rw [dif_neg (show ¬(1 : Fin S768x768.rank) ∈ dot_S768x768_S768x768_S768x768_1_0_0_1_n_n.rhsBatch by decide),
    dif_pos (show (1 : Fin S768x768.rank) ∈ dot_S768x768_S768x768_S768x768_1_0_0_1_n_n.rhsNonContracting by decide)]
  rfl

/-- The body's matrix product into a zero accumulator reads, at `(p, q)`, the sum over `c` of the left operand's
    `(p, c)` times the right operand's `(c, q)`. -/
theorem blockMatmul_apply {φ₁ φ₂ : FTy} (A : FVec Ideal S768x768 φ₁) (B : FVec Ideal S768x768 φ₂) (p q : Fin 768) :
    matmul dot_S768x768_S768x768_S768x768_1_0_0_1_n_n none A B (constant S768x768 .f32 0x00000000#32) (ix2 p q)
      = ∑ c : Fin 768, A (ix2 p c) * B (ix2 c q) := by
  refine Cert.Lib.Gram.matmul_zero_single_apply dot_S768x768_S768x768_S768x768_1_0_0_1_n_n 768 rfl rfl none A B (ix2 p q)
    (fun c => ix2 p c) (fun c => ix2 c q) (fun c => ?_) (fun c => ?_)
  · have hk := contrEquiv1_symm_val dot_S768x768_S768x768_S768x768_1_0_0_1_n_n 768 rfl rfl c
    refine funext fun a => Fin.ext ?_
    match a with
    | ⟨0, _⟩ => exact lhs_row _ _
    | ⟨1, _⟩ => exact (dot_S768x768_S768x768_S768x768_1_0_0_1_n_n.lhsIdx_val_of_single rfl _ _).trans hk
  · have hk := contrEquiv1_symm_val dot_S768x768_S768x768_S768x768_1_0_0_1_n_n 768 rfl rfl c
    refine funext fun a => Fin.ext ?_
    match a with
    | ⟨0, _⟩ => exact (dot_S768x768_S768x768_S768x768_1_0_0_1_n_n.rhsIdx_val_of_single rfl _ _).trans hk
    | ⟨1, _⟩ => exact rhs_col _ _

/-! ## The body's intermediate values -/

section Body

variable (ab xb : Vec Ideal S1x768x768 .f32) (w1 w : Vec Ideal S768x768 .f32)

/-- The graph's edge weights as a matrix. -/
def edges : FVec Ideal S768x768 .f32 := shapeCast S768x768 ab shapeCasts_S1x768x768_S768x768

theorem edges_apply (p q : Fin 768) : edges ab (ix2 p q) = ab (ix3 (0 : Fin 1) p q) :=
  shapeCast_1ab_ab_apply ab shapeCasts_S1x768x768_S768x768 p q

/-- The row sums of the edge weights. -/
def rowSums : FVec Ideal S768 .f32 :=
  multiReduction .add [1] S768 (edges ab) 0x00000000#32 reduces_S768x768_S768 (.inl rfl) rfl

theorem rowSums_apply (p : Fin 768) : rowSums ab (ix1 p) = rowSum ab (0 : Fin 1) p := by
  unfold rowSums rowSum
  refine (laneSum_apply (edges ab) reduces_S768x768_S768 (.inl rfl) rfl p).trans ?_
  exact Finset.sum_congr rfl fun k _ => edges_apply ab p k

/-- The normalising factors as a column. -/
def factorCol : FVec Ideal S768x1 .f32 :=
  select (cmpf .oeq (shapeCast S768x1 (rowSums ab) shapeCasts_S768_S768x1) (broadcast S768x1 (Scalar.ofBits .f32 0x00000000#32)))
    (broadcast S768x1 (Scalar.ofBits .f32 0x00000000#32))
    (divf (broadcast S768x1 (Scalar.ofBits .f32 0x3F800000#32)) (shapeCast S768x1 (rowSums ab) shapeCasts_S768_S768x1))

theorem factorCol_apply (p : Fin 768) (u : Fin 1) : factorCol ab (ix2 p u) = rowInv ab (0 : Fin 1) p := by
  unfold factorCol rowInv
  rw [select_apply, cmpf_apply, divf_apply, broadcast_apply, broadcast_apply,
    Cert.Lib.Gram.shapeCast_a_a1_apply, rowSums_apply]
  rfl

/-- The normalised edge weights. -/
def normed : FVec Ideal S768x768 .bf16 :=
  truncf .bf16 (mulf (edges ab) (broadcastTo S768x768 (factorCol ab) broadcasts_S768x1_S768x768)) bitsLt_bf16_f32

theorem normed_apply (p m : Fin 768) : normed ab (ix2 p m) = ab (ix3 (0 : Fin 1) p m) * rowInv ab (0 : Fin 1) p := by
  unfold normed
  rw [truncf_apply, mulf_apply, edges_apply, broadcastTo_a1_ab_apply, factorCol_apply]

/-- The graph's features as a matrix. -/
def feats : FVec Ideal S768x768 .bf16 :=
  truncf .bf16 (shapeCast S768x768 xb shapeCasts_S1x768x768_S768x768) bitsLt_bf16_f32

theorem feats_apply (p q : Fin 768) : feats xb (ix2 p q) = xb (ix3 (0 : Fin 1) p q) := by
  unfold feats
  rw [truncf_apply]
  exact shapeCast_1ab_ab_apply xb shapeCasts_S1x768x768_S768x768 p q

/-- The messages: the features through the second weight matrix. -/
def msgs : FVec Ideal S768x768 .bf16 :=
  truncf .bf16 (matmul dot_S768x768_S768x768_S768x768_1_0_0_1_n_n none (feats xb) (truncf .bf16 w1 bitsLt_bf16_f32)
    (constant S768x768 .f32 0x00000000#32)) bitsLt_bf16_f32

theorem msgs_apply (m q : Fin 768) : msgs xb w1 (ix2 m q) = proj xb w1 (0 : Fin 1) m q := by
  unfold msgs proj
  rw [truncf_apply, blockMatmul_apply]
  exact Finset.sum_congr rfl fun k _ => by rw [feats_apply, truncf_apply]

/-- The value before the rectifier. -/
def pre : FVec Ideal S768x768 .f32 :=
  addf (matmul dot_S768x768_S768x768_S768x768_1_0_0_1_n_n none (feats xb) (truncf .bf16 w bitsLt_bf16_f32)
      (constant S768x768 .f32 0x00000000#32))
    (matmul dot_S768x768_S768x768_S768x768_1_0_0_1_n_n none (normed ab) (msgs xb w1) (constant S768x768 .f32 0x00000000#32))

theorem pre_apply (p q : Fin 768) :
    pre ab xb w1 w (ix2 p q) = proj xb w (0 : Fin 1) p q + gathered ab xb w1 (0 : Fin 1) p q := by
  unfold pre gathered
  rw [addf_apply, blockMatmul_apply, blockMatmul_apply]
  congr 1
  · unfold proj
    exact Finset.sum_congr rfl fun k _ => by rw [feats_apply, truncf_apply]
  · exact Finset.sum_congr rfl fun m _ => by rw [normed_apply, msgs_apply]

/-- The body's stored value is the rectifier of `pre`, kept as a 1 × 768 × 768 block. -/
theorem payload_eq : k0_pay1 (F := Ideal) ab xb w1 w
    = shapeCast S1x768x768 (select (cmpf .ogt (pre ab xb w1 w) (broadcast S768x768 (Scalar.ofBits .f32 0x00000000#32)))
        (pre ab xb w1 w) (mulf (broadcast S768x768 (Scalar.ofBits .f32 0x3C23D70A#32)) (pre ab xb w1 w)))
      shapeCasts_S768x768_S1x768x768 := rfl

/-- The body's stored block at entry `(p, q)` is the layer at the one-graph stack made of the two blocks. -/
theorem payload_apply (u : Fin 1) (p q : Fin 768) :
    k0_pay1 (F := Ideal) ab xb w1 w (ix3 u p q) = layerAt xb ab w w1 (0 : Fin 1) p q := by
  rw [payload_eq, shapeCast_ab_1ab_apply, select_apply, cmpf_apply, mulf_apply, broadcast_apply, broadcast_apply, pre_apply]
  rfl

end Body

end Cert.KernelIdeal.Block

end
-- ==== Proof.GnnKernelValue.lean ====
/-
  The kernel's output array after the run is the layer of the specification.

  The pipeline visits the 32 graphs in order.  At point `t` the features', the edge weights' and the output's blocks are
  graph `t` (rows and columns whole), and the two weight matrices' blocks are the matrices whole.  So what point `t`
  writes back — the body's stored block of the input blocks at `t` — is graph `t` of the layer of the four argument
  arrays; every index of the output lies in the block of the point its graph coordinate names; hence the output array
  ends holding the layer everywhere.
-/
import proofs.«157005_j1254130450915_1_alg».proof.Proof.Gen.KernelIdeal.Value
import proofs.«157005_j1254130450915_1_alg».proof.Proof.GnnBlock
import Idealize.ShloMosaic.Lib.Pipeline.Value

noncomputable section

namespace Cert.KernelIdeal.Layer

open Cert.KernelIdeal Cert.KernelIdeal.Gen Cert.KernelIdeal.Block Idealize.ShloMosaic Idealize.ShloMosaic.TcCoe Idealize.SL.Sem
open Idealize.ShloMosaic.ValueIdx Cert.Gnn
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the grid: at point `t` the three per-graph windows sit at block `(t, 0, 0)`
    and the two weight windows at block `(0, 0)`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0) :=
  (by decide +kernel : ∀ t : Fin grid0.N, _)

/-- The graph a grid point works on. -/
def graphOf (t : Fin cfg0.N) : Fin 32 := ⟨t.val, by have h : cfg0.N = 32 := N_0; have := t.isLt; omega⟩

/-! ## The input blocks at a point -/

/-- The features' block at point `t` is graph `t` of the features. -/
theorem iblk0_apply (c : Dev nD) (t : Fin cfg0.N) (n k : Fin 768) :
    (iblk m c 0 t : Vec Ideal S1x768x768 .f32) (ix3 (0 : Fin 1) n k)
      = (V m c main_arg0 : S32x768x768.Idx → EReal) (ix3 (graphOf t) n k) := by
  obtain ⟨⟨e0, e1, e2⟩, -⟩ := idx_facts t
  unfold iblk
  rw [View.read_apply]
  show V m c main_arg0 (((cfg0.win 0).blk t).view.emb (ix3 (0 : Fin 1) n k)) = V m c main_arg0 (ix3 (graphOf t) n k)
  refine congrArg _ (funext fun a => Fin.ext ?_)
  match a with
  | ⟨0, _⟩ => show win0_0.index t (0 : Fin 3) * 1 + 1 * 0 = t.val; omega
  | ⟨1, _⟩ => show win0_0.index t (1 : Fin 3) * 768 + 1 * n.val = n.val; omega
  | ⟨2, _⟩ => show win0_0.index t (2 : Fin 3) * 768 + 1 * k.val = k.val; omega

/-- The edge weights' block at point `t` is graph `t` of the edge weights. -/
theorem iblk1_apply (c : Dev nD) (t : Fin cfg0.N) (n k : Fin 768) :
    (iblk m c 1 t : Vec Ideal S1x768x768 .f32) (ix3 (0 : Fin 1) n k)
      = (V m c main_arg1 : S32x768x768.Idx → EReal) (ix3 (graphOf t) n k) := by
  obtain ⟨-, ⟨e0, e1, e2⟩, -⟩ := idx_facts t
  unfold iblk
  rw [View.read_apply]
  show V m c main_arg1 (((cfg0.win 1).blk t).view.emb (ix3 (0 : Fin 1) n k)) = V m c main_arg1 (ix3 (graphOf t) n k)
  refine congrArg _ (funext fun a => Fin.ext ?_)
  match a with
  | ⟨0, _⟩ => show win0_1.index t (0 : Fin 3) * 1 + 1 * 0 = t.val; omega
  | ⟨1, _⟩ => show win0_1.index t (1 : Fin 3) * 768 + 1 * n.val = n.val; omega
  | ⟨2, _⟩ => show win0_1.index t (2 : Fin 3) * 768 + 1 * k.val = k.val; omega

/-- The first weight matrix's block at any point is the matrix. -/
theorem iblk2_apply (c : Dev nD) (t : Fin cfg0.N) (i : S768x768.Idx) :
    (iblk m c 2 t : Vec Ideal S768x768 .f32) i = (V m c main_arg2 : S768x768.Idx → EReal) i := by
  obtain ⟨-, -, ⟨e0, e1⟩, -⟩ := idx_facts t
  unfold iblk
  rw [View.read_apply]
  show V m c main_arg2 (((cfg0.win 2).blk t).view.emb i) = V m c main_arg2 i
  refine congrArg _ (funext fun a => Fin.ext ?_)
  match a with
  | ⟨0, _⟩ => show win0_2.index t (0 : Fin 2) * 768 + 1 * (i 0).val = (i 0).val; omega
  | ⟨1, _⟩ => show win0_2.index t (1 : Fin 2) * 768 + 1 * (i 1).val = (i 1).val; omega

/-- The second weight matrix's block at any point is the matrix. -/
theorem iblk3_apply (c : Dev nD) (t : Fin cfg0.N) (i : S768x768.Idx) :
    (iblk m c 3 t : Vec Ideal S768x768 .f32) i = (V m c main_arg3 : S768x768.Idx → EReal) i := by
  obtain ⟨-, -, -, ⟨e0, e1⟩, -⟩ := idx_facts t
  unfold iblk
  rw [View.read_apply]
  show V m c main_arg3 (((cfg0.win 3).blk t).view.emb i) = V m c main_arg3 i
  refine congrArg _ (funext fun a => Fin.ext ?_)
  match a with
  | ⟨0, _⟩ => show win0_3.index t (0 : Fin 2) * 768 + 1 * (i 0).val = (i 0).val; omega
  | ⟨1, _⟩ => show win0_3.index t (1 : Fin 2) * 768 + 1 * (i 1).val = (i 1).val; omega

/-! ## What a point writes back -/

/-- The body's stored block of one graph's blocks, read at a block entry, is the layer of the whole arrays at the
    array entry the block entry sits at: same node and feature, the graph the blocks were cut from. -/
theorem block_layer (X A : S32x768x768.Idx → EReal) (W W1 : S768x768.Idx → EReal)
    (xb ab : Vec Ideal S1x768x768 .f32) (w w1 : Vec Ideal S768x768 .f32) (b : Fin 32)
    (hx : ∀ n k, xb (ix3 (0 : Fin 1) n k) = X (ix3 b n k)) (ha : ∀ n k, ab (ix3 (0 : Fin 1) n k) = A (ix3 b n k))
    (hw : ∀ i, w i = W i) (hw1 : ∀ i, w1 i = W1 i)
    (y : S1x768x768.Idx) (i : S32x768x768.Idx)
    (h0 : (i 0).val = b.val) (h1 : (i 1).val = (y 1).val) (h2 : (i 2).val = (y 2).val) :
    k0_pay1 (F := Ideal) ab xb w1 w y = layer (g := 32) X A W W1 i := by
  obtain ⟨u, p, q, rfl⟩ : ∃ (u : Fin 1) (p q : Fin 768), y = ix3 u p q := ⟨y 0, y 1, y 2, eq_ix3 y⟩
  obtain ⟨b', n, d, rfl⟩ : ∃ (b' : Fin 32) (n d : Fin 768), i = ix3 b' n d := ⟨i 0, i 1, i 2, eq_ix3 i⟩
  obtain rfl : b' = b := Fin.ext h0
  obtain rfl : n = p := Fin.ext h1
  obtain rfl : d = q := Fin.ext h2
  obtain rfl : w = W := funext hw
  obtain rfl : w1 = W1 := funext hw1
  rw [payload_apply, layer_ix3]
  exact layerAt_congr X A xb ab w w1 b' (0 : Fin 1) hx ha n d

/-- WHAT POINT `t` WRITES BACK is block `t` of the layer of the argument arrays as the region finds them. -/
theorem flushed_eq (c : Dev nD) (t : Fin cfg0.N) :
    (dats m 0 c).flushed 4 t = ((cfg0.win 4).blk t).view.read (Elt Ideal)
      (layer (g := 32) (V m c main_arg0) (V m c main_arg1) (V m c main_arg2) (V m c main_arg3)) := by
  obtain ⟨-, -, -, -, ⟨e0, e1, e2⟩⟩ := idx_facts t
  rw [Value.flushed4]
  unfold out0_4
  rw [View.canon_unit_zero hz3]
  simp only [View.ld_unit_zero (S := S1x768x768) hz3, View.ld_unit_zero (S := S768x768) hz2]
  funext y
  show k0_pay1 (F := Ideal) (iblk m c 1 t) (iblk m c 0 t) (iblk m c 3 t) (iblk m c 2 t) y
    = layer (g := 32) (V m c main_arg0) (V m c main_arg1) (V m c main_arg2) (V m c main_arg3) (((cfg0.win 4).blk t).view.emb y)
  refine block_layer (V m c main_arg0) (V m c main_arg1) (V m c main_arg2) (V m c main_arg3)
    (iblk m c 0 t) (iblk m c 1 t) (iblk m c 2 t) (iblk m c 3 t) (graphOf t)
    (iblk0_apply m c t) (iblk1_apply m c t) (iblk2_apply m c t) (iblk3_apply m c t) y
    (((cfg0.win 4).blk t).view.emb y) ?_ ?_ ?_
  · show win0_4.index t (0 : Fin 3) * 1 + 1 * (y 0).val = t.val
    have hy : (y 0).val < 1 := (y 0).isLt
    omega
  · show win0_4.index t (1 : Fin 3) * 768 + 1 * (y 1).val = (y 1).val
    omega
  · show win0_4.index t (2 : Fin 3) * 768 + 1 * (y 2).val = (y 2).val
    omega

/-! ## The blocks fill the array -/

/-- An index of the output is in point `t`'s block iff each coordinate is in the block's range on its axis. -/
theorem mem_blk (t : Fin cfg0.N) (i : S32x768x768.Idx) :
    i ∈ ((cfg0.win 4).blk t).view.set ↔ ∀ a : Fin 3, win0_4.index t a * S1x768x768.size a ≤ (i a).val
      ∧ (i a).val < win0_4.index t a * S1x768x768.size a + S1x768x768.size a := by
  show i ∈ ((View.whole main_v0).slice (win0_4.rect t)).set ↔ _
  rw [View.set_slice_whole, Rect.mem_set_unit]
  exact Iff.rfl

/-- Every index of the output is in the block of the point its graph coordinate names. -/
theorem cover (i : S32x768x768.Idx) :
    ∃ t : Fin cfg0.N, (cfg0.win 4).flush t = true ∧ i ∈ ((cfg0.win 4).blk t).view.set := by
  have hN : cfg0.N = 32 := N_0
  have hi0 : (i 0).val < 32 := (i 0).isLt
  have hi1 : (i 1).val < 768 := (i 1).isLt
  have hi2 : (i 2).val < 768 := (i 2).isLt
  let t : Fin cfg0.N := ⟨(i 0).val, by omega⟩
  obtain ⟨-, -, -, -, ⟨e0, e1, e2⟩⟩ := idx_facts t
  have ht : t.val = (i 0).val := rfl
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 768 ≤ (i 1).val ∧ (i 1).val < win0_4.index t (1 : Fin 3) * 768 + 768; omega
  | ⟨2, _⟩ => show win0_4.index t (2 : Fin 3) * 768 ≤ (i 2).val ∧ (i 2).val < win0_4.index t (2 : Fin 3) * 768 + 768; omega

/-- THE OUTPUT ARRAY after the run is the layer of the argument arrays as launched. -/
theorem final (c : Dev nD) : (dats m 0 c).arrAt 4 cfg0.N
    = layer (g := 32) (m ((c : Thread nD τ).loc main_arg0)) (m ((c : Thread nD τ).loc main_arg1))
        (m ((c : Thread nD τ).loc main_arg2)) (m ((c : Thread nD τ).loc main_arg3)) :=
  (dats m 0 c).arrAt_eq_of_cover 4
    (layer (g := 32) (V m c main_arg0) (V m c main_arg1) (V m c main_arg2) (V m c main_arg3))
    (fun t _ => flushed_eq m c t) cover

/-! ## The run, read -/

/-- The kernel's run with the output array at the layer of the arguments, the arguments unchanged. -/
theorem run : θ_run defs (onTc (τ := τ) (main (F := Ideal))) ⟨m, fun _ => 0, ρ⟩ fun r => ∀ c : Dev nD,
      r.2.mem ((c : Thread nD τ).loc main_v0)
        = layer (g := 32) (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Layer

end
-- ==== Proof.GnnRefRun.lean ====
/-
  The reference program's run, read back.

  The reference's @main is a straight line of host operations once its three outlined functions are put in their
  calls' places: the choice of the normalising factor (a conversion of the scalar zero, its broadcast and a select),
  and the leaky rectifier (a zero and its broadcast, the comparison `0 ≤ h`, the slope converted and broadcast, the
  product, and, one call deeper, the select).  Twenty-seven operations in all.  Run in order from the launch contents
  they leave the result buffer at one composed term of the four arguments, `refTerm`, and the arguments as they were.
-/
import proofs.«157005_j1254130450915_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded. -/
abbrev ops : List (HloOp τ sig (Elt F)) :=
  [ nullary main_cst (constant S_ .f32 0x00000000#32),
    binary main_arg1 main_cst main_v0 ((fun x v => Host.reduceAdd x v reducesTo_S32x768x768_S32x768_d2 h_S_) : (⟨S32x768x768, .f32⟩ : BufTy).Contents (Elt F) → (⟨S_, .f32⟩ : BufTy).Contents (Elt F) → (⟨S32x768, .f32⟩ : BufTy).Contents (Elt F)),
    unary main_v0 main_v1 (broadcastInDim S32x768x1 ![0, 1] bcast_S32x768_S32x768x1_0_1 : (⟨S32x768, .f32⟩ : BufTy).Contents (Elt F) → (⟨S32x768x1, .f32⟩ : BufTy).Contents (Elt F)),
    nullary main_cst_0 (constant S_ .f32 0x00000000#32),
    unary main_cst_0 main_v2 (broadcastInDim S32x768x1 ![] bcast_S_S32x768x1 : (⟨S_, .f32⟩ : BufTy).Contents (Elt F) → (⟨S32x768x1, .f32⟩ : BufTy).Contents (Elt F)),
    binary main_v1 main_v2 main_v3 (cmpf .oeq : (⟨S32x768x1, .f32⟩ : BufTy).Contents (Elt F) → (⟨S32x768x1, .f32⟩ : BufTy).Contents (Elt F) → (⟨S32x768x1, .i1⟩ : BufTy).Contents (Elt F)),
    nullary main_cst_1 (constant S_ .f32 0x3F800000#32),
    unary main_cst_1 main_v4 (broadcastInDim S32x768x1 ![] bcast_S_S32x768x1 : (⟨S_, .f32⟩ : BufTy).Contents (Elt F) → (⟨S32x768x1, .f32⟩ : BufTy).Contents (Elt F)),
    binary main_v4 main_v1 main_v5 (Host.divf : (⟨S32x768x1, .f32⟩ : BufTy).Contents (Elt F) → (⟨S32x768x1, .f32⟩ : BufTy).Contents (Elt F) → (⟨S32x768x1, .f32⟩ : BufTy).Contents (Elt F)),
    nullary main_cst_2 (constant S_ .f32 0x00000000#32),
    TRef.unary (.of main_cst_2) main_call0.v0 id,
    TRef.unary main_call0.v0 main_call0.v1 (broadcastInDim S32x768x1 ![] bcast_S_S32x768x1),
    TRef.ternary (.of main_v3) main_call0.v1 (.of main_v5) main_call0.v2 select,
    unary main_v6 main_v7 (broadcastInDim S32x768x768 ![0, 1, 2] bcast_S32x768x1_S32x768x768_0_1_2 : (⟨S32x768x1, .f32⟩ : BufTy).Contents (Elt F) → (⟨S32x768x768, .f32⟩ : BufTy).Contents (Elt F)),
    binary main_arg1 main_v7 main_v8 (mulf : (⟨S32x768x768, .f32⟩ : BufTy).Contents (Elt F) → (⟨S32x768x768, .f32⟩ : BufTy).Contents (Elt F) → (⟨S32x768x768, .f32⟩ : BufTy).Contents (Elt F)),
    binary main_arg0 main_arg3 main_v9 ((fun l r => Host.dotGeneral dot_S32x768x768_S768x768_S32x768x768_2_0_01_1_n_n none l r) : (⟨S32x768x768, .f32⟩ : BufTy).Contents (Elt F) → (⟨S768x768, .f32⟩ : BufTy).Contents (Elt F) → (⟨S32x768x768, .f32⟩ : BufTy).Contents (Elt F)),
    binary main_v8 main_v9 main_v10 ((fun l r => Host.dotGeneral dot_S32x768x768_S32x768x768_S32x768x768_2_1_1_2_0_0 none l r) : (⟨S32x768x768, .f32⟩ : BufTy).Contents (Elt F) → (⟨S32x768x768, .f32⟩ : BufTy).Contents (Elt F) → (⟨S32x768x768, .f32⟩ : BufTy).Contents (Elt F)),
    binary main_arg0 main_arg2 main_v11 ((fun l r => Host.dotGeneral dot_S32x768x768_S768x768_S32x768x768_2_0_01_1_n_n none l r) : (⟨S32x768x768, .f32⟩ : BufTy).Contents (Elt F) → (⟨S768x768, .f32⟩ : BufTy).Contents (Elt F) → (⟨S32x768x768, .f32⟩ : BufTy).Contents (Elt F)),
    binary main_v11 main_v10 main_v12 (addf : (⟨S32x768x768, .f32⟩ : BufTy).Contents (Elt F) → (⟨S32x768x768, .f32⟩ : BufTy).Contents (Elt F) → (⟨S32x768x768, .f32⟩ : BufTy).Contents (Elt F)),
    nullary main_cst_3 (constant S_ .f32 0x3C23D70A#32),
    TRef.nullary main_call1.cst (constant S_ .f32 0x00000000#32),
    TRef.unary main_call1.cst main_call1.v0 (broadcastInDim S32x768x768 ![] bcast_S_S32x768x768),
    TRef.binary (.of main_v12) main_call1.v0 main_call1.v1 (cmpf .oge),
    TRef.unary (.of main_cst_3) main_call1.v2 id,
    TRef.unary main_call1.v2 main_call1.v3 (broadcastInDim S32x768x768 ![] bcast_S_S32x768x768),
    TRef.binary main_call1.v3 (.of main_v12) main_call1.v4 mulf,
    TRef.ternary main_call1.v1 (.of main_v12) main_call1.v4 main_call1.call0.v0 select ]

set_option maxRecDepth 1024 in
/-- @main is that straight line: the functions' definitions unfolded at their calls, and sequencing reassociated. -/
theorem main_eq (c : Dev nD) : main (F := F) c = seq ops := by
  simp only [main, fn_where.body, fn_where_0.body, fn_leaky_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., binary_bufs_sub .., binary_bufs_sub .., binary_bufs_sub .., binary_bufs_sub ..,
    binary_bufs_sub .., nullary_bufs_sub .., nullary_bufs_sub .., unary_bufs_sub .., binary_bufs_sub .., unary_bufs_sub ..,
    unary_bufs_sub .., binary_bufs_sub .., ternary_bufs_sub ..⟩

/-- The row sums of the edge weights, kept with a unit axis. -/
def refSums (A : (⟨S32x768x768, .f32⟩ : BufTy).Contents (Elt F)) : (⟨S32x768x1, .f32⟩ : BufTy).Contents (Elt F) :=
  broadcastInDim S32x768x1 ![0, 1] bcast_S32x768_S32x768x1_0_1
    (Host.reduceAdd (F := F) A (constant (F := F) S_ .f32 0x00000000#32) reducesTo_S32x768x768_S32x768_d2 h_S_)

/-- The normalising factor as the reference computes it from the edge weights: the row sums compared with zero, the
    reciprocal taken, and zero chosen where the sum is zero. -/
def refFactor (A : (⟨S32x768x768, .f32⟩ : BufTy).Contents (Elt F)) : (⟨S32x768x1, .f32⟩ : BufTy).Contents (Elt F) :=
  select (cmpf .oeq (refSums A) (broadcastInDim S32x768x1 ![] bcast_S_S32x768x1 (constant (F := F) S_ .f32 0x00000000#32)))
    (broadcastInDim S32x768x1 ![] bcast_S_S32x768x1 (constant (F := F) S_ .f32 0x00000000#32))
    (Host.divf (F := F) (broadcastInDim S32x768x1 ![] bcast_S_S32x768x1 (constant (F := F) S_ .f32 0x3F800000#32)) (refSums A))

/-- The value before the rectifier: the nodes' own transform plus the gathered messages. -/
def refPre (X A : (⟨S32x768x768, .f32⟩ : BufTy).Contents (Elt F)) (W W1 : (⟨S768x768, .f32⟩ : BufTy).Contents (Elt F)) :
    (⟨S32x768x768, .f32⟩ : BufTy).Contents (Elt F) :=
  addf (Host.dotGeneral (F := F) dot_S32x768x768_S768x768_S32x768x768_2_0_01_1_n_n none X W)
    (Host.dotGeneral (F := F) dot_S32x768x768_S32x768x768_S32x768x768_2_1_1_2_0_0 none
      (mulf A (broadcastInDim S32x768x768 ![0, 1, 2] bcast_S32x768x1_S32x768x768_0_1_2 (refFactor A)))
      (Host.dotGeneral (F := F) dot_S32x768x768_S768x768_S32x768x768_2_0_01_1_n_n none X W1))

/-- The rectifier as the reference spells it: `h` where `0 ≤ h`, the slope times `h` elsewhere. -/
def refLeaky (h : (⟨S32x768x768, .f32⟩ : BufTy).Contents (Elt F)) : (⟨S32x768x768, .f32⟩ : BufTy).Contents (Elt F) :=
  select (cmpf .oge h (broadcastInDim S32x768x768 ![] bcast_S_S32x768x768 (constant (F := F) S_ .f32 0x00000000#32))) h
    (mulf (broadcastInDim S32x768x768 ![] bcast_S_S32x768x768 (constant (F := F) S_ .f32 0x3C23D70A#32)) h)

/-- The reference's result as one term of its four arguments. -/
def refTerm (X A : (⟨S32x768x768, .f32⟩ : BufTy).Contents (Elt F)) (W W1 : (⟨S768x768, .f32⟩ : BufTy).Contents (Elt F)) :
    (⟨S32x768x768, .f32⟩ : BufTy).Contents (Elt F) :=
  refLeaky (refPre X A W W1)

set_option maxHeartbeats 2000000 in
/-- The fold of the operations at the result buffer is `refTerm` of the contents at the argument buffers: each
    operation's result is its function of its operands' contents, and no operation writes an argument. -/
theorem out_eq (V : Valuation τ sig (Elt F)) :
    after ops V (main_v13 : DevRef τ sig)
      = refTerm (V (main_arg0 : DevRef τ sig)) (V (main_arg1 : DevRef τ sig)) (V (main_arg2 : DevRef τ sig))
          (V (main_arg3 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp

/-- On every device, for any float values, from any memory with zero counters: every weakly fair execution of @main
    terminates with the result at `refTerm` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = refTerm (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v13).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.GnnRefValue.lean ====
/-
  The reference's result is the layer of the specification, entry by entry.

  Read at an index, the reference's operations are: a sum over the last axis from a zero initial value (the row sum),
  kept with a unit axis; the choice of the normalising factor; the factor spread along the last axis and multiplied
  into the edge weights; three contractions, each over one axis — the features against a weight matrix (twice) and,
  graph by graph, the normalised edge weights against the messages — read as sums over the contracted coordinate; a
  sum; and the rectifier with the weak test, which is the rectifier with the strict test.
-/
import proofs.«157005_j1254130450915_1_alg».proof.Proof.GnnRefRun
import proofs.«157005_j1254130450915_1_alg».proof.Proof.GnnSpec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx Cert.Gnn

/-- The contraction of the features' last axis against a weight matrix's first. -/
abbrev DW : DotDims S32x768x768 S768x768 S32x768x768 := dot_S32x768x768_S768x768_S32x768x768_2_0_01_1_n_n
/-- The contraction, graph by graph, of the left operand's last axis against the right operand's middle axis. -/
abbrev DG : DotDims S32x768x768 S32x768x768 S32x768x768 := dot_S32x768x768_S32x768x768_S32x768x768_2_1_1_2_0_0

/-! ## Layout operations at an index -/

/-- The row sums kept with a unit axis read, at `(b, n, u)`, the sums at `(b, n)`. -/
theorem keep_apply {α : Type} (x : S32x768.Idx → α) (b : Fin 32) (n : Fin 768) (u : Fin 1) :
    broadcastInDim S32x768x1 ![0, 1] bcast_S32x768_S32x768x1_0_1 x (ix3 b n u) = x (ix2 b n) := by
  refine broadcastInDim_apply _ _ x (ix3 b n u) (ix2 b n) fun a => ?_
  match a with
  | ⟨0, _⟩ => rfl
  | ⟨1, _⟩ => rfl

/-- A unit last axis spread over 768 entries reads, at `(b, n, m)`, the operand at `(b, n, 0)`. -/
theorem spread_apply {α : Type} (x : S32x768x1.Idx → α) (b : Fin 32) (n m : Fin 768) :
    broadcastInDim S32x768x768 ![0, 1, 2] bcast_S32x768x1_S32x768x768_0_1_2 x (ix3 b n m) = x (ix3 b n (0 : Fin 1)) := by
  refine broadcastInDim_apply _ _ x (ix3 b n m) (ix3 b n (0 : Fin 1)) fun a => ?_
  match a with
  | ⟨0, _⟩ => rfl
  | ⟨1, _⟩ => rfl
  | ⟨2, _⟩ => rfl

/-! ## The row sums and the normalising factor -/

theorem refSums_apply (A : FVec Ideal S32x768x768 .f32) (b : Fin 32) (n : Fin 768) (u : Fin 1) :
    refSums (F := Ideal) A (ix3 b n u) = rowSum A b n := by
  unfold refSums rowSum
  rw [keep_apply, hostReduceAdd_apply, Ideal.hostReduceAdd_single reducesTo_S32x768x768_S32x768_d2 (by decide),
    constant_apply, Ideal.ofBits_zero_f32, zero_add]
  exact Finset.sum_congr rfl fun k _ => congrArg A (funext fun a => Fin.ext (by
    match a with
    | ⟨0, _⟩ => rfl
    | ⟨1, _⟩ => rfl
    | ⟨2, _⟩ => rfl))

theorem refFactor_apply (A : FVec Ideal S32x768x768 .f32) (b : Fin 32) (n : Fin 768) (u : Fin 1) :
    refFactor (F := Ideal) A (ix3 b n u) = rowInv A b n := by
  unfold refFactor rowInv
  rw [select_apply, cmpf_apply, hostDivf_apply, broadcastInDim_scalar_apply, broadcastInDim_scalar_apply,
    constant_apply, constant_apply, refSums_apply]
  rfl

/-! ## The features against a weight matrix -/

theorem lhsW_0 (i : S32x768x768.Idx) (q : DW.contr.Idx) : (DW.lhsIdx i q 0).val = (i 0).val := by
  unfold DotDims.lhsIdx
  rw [dif_neg (show ¬(0 : Fin S32x768x768.rank) ∈ DW.lhsBatch by decide),
    dif_pos (show (0 : Fin S32x768x768.rank) ∈ DW.lhsNonContracting by decide)]
  rfl

theorem lhsW_1 (i : S32x768x768.Idx) (q : DW.contr.Idx) : (DW.lhsIdx i q 1).val = (i 1).val := by
  unfold DotDims.lhsIdx
  rw [dif_neg (show ¬(1 : Fin S32x768x768.rank) ∈ DW.lhsBatch by decide),
    dif_pos (show (1 : Fin S32x768x768.rank) ∈ DW.lhsNonContracting by decide)]
  rfl

theorem rhsW_1 (i : S32x768x768.Idx) (q : DW.contr.Idx) : (DW.rhsIdx i q 1).val = (i 2).val := by
  unfold DotDims.rhsIdx
  rw [dif_neg (show ¬(1 : Fin S768x768.rank) ∈ DW.rhsBatch by decide),
    dif_pos (show (1 : Fin S768x768.rank) ∈ DW.rhsNonContracting by decide)]
  rfl

/-- The features through a weight matrix, at `(b, n, e)`: the sum over the feature coordinate. -/
theorem dotW_apply (X : FVec Ideal S32x768x768 .f32) (W : FVec Ideal S768x768 .f32) (b : Fin 32) (n e : Fin 768) :
    Host.dotGeneral (F := Ideal) DW none X W (ix3 b n e) = proj X W b n e := by
  unfold proj
  simp only [Host.dotGeneral]
  rw [Ideal.dotGeneral_apply, ← Equiv.sum_comp (contrEquiv1 DW 768 rfl rfl).symm]
  refine Finset.sum_congr rfl fun k _ => ?_
  have hk := contrEquiv1_symm_val DW 768 rfl rfl k
  have el : DW.lhsIdx (ix3 b n e) ((contrEquiv1 DW 768 rfl rfl).symm k) = ix3 b n k := funext fun a => Fin.ext (by
    match a with
    | ⟨0, _⟩ => exact lhsW_0 _ _
    | ⟨1, _⟩ => exact lhsW_1 _ _
    | ⟨2, _⟩ => exact (DW.lhsIdx_val_of_single rfl _ _).trans hk)
  have er : DW.rhsIdx (ix3 b n e) ((contrEquiv1 DW 768 rfl rfl).symm k) = ix2 k e := funext fun a => Fin.ext (by
    match a with
    | ⟨0, _⟩ => exact (DW.rhsIdx_val_of_single rfl _ _).trans hk
    | ⟨1, _⟩ => exact rhsW_1 _ _)
  rw [el, er]

/-! ## The normalised edge weights against the messages, graph by graph -/

theorem lhsG_0 (i : S32x768x768.Idx) (q : DG.contr.Idx) : (DG.lhsIdx i q 0).val = (i 0).val := by
  unfold DotDims.lhsIdx
  rw [dif_pos (show (0 : Fin S32x768x768.rank) ∈ DG.lhsBatch by decide)]
  rfl

theorem lhsG_1 (i : S32x768x768.Idx) (q : DG.contr.Idx) : (DG.lhsIdx i q 1).val = (i 1).val := by
  unfold DotDims.lhsIdx
  rw [dif_neg (show ¬(1 : Fin S32x768x768.rank) ∈ DG.lhsBatch by decide),
    dif_pos (show (1 : Fin S32x768x768.rank) ∈ DG.lhsNonContracting by decide)]
  rfl

theorem rhsG_0 (i : S32x768x768.Idx) (q : DG.contr.Idx) : (DG.rhsIdx i q 0).val = (i 0).val := by
  unfold DotDims.rhsIdx
  rw [dif_pos (show (0 : Fin S32x768x768.rank) ∈ DG.rhsBatch by decide)]
  rfl

theorem rhsG_2 (i : S32x768x768.Idx) (q : DG.contr.Idx) : (DG.rhsIdx i q 2).val = (i 2).val := by
  unfold DotDims.rhsIdx
  rw [dif_neg (show ¬(2 : Fin S32x768x768.rank) ∈ DG.rhsBatch by decide),
    dif_pos (show (2 : Fin S32x768x768.rank) ∈ DG.rhsNonContracting by decide)]
  rfl

/-- The graph-by-graph contraction at `(b, n, d)`: the sum over the neighbour `m` of the left operand's
    `(b, n, m)` times the right operand's `(b, m, d)`. -/
theorem dotG_apply (L R : FVec Ideal S32x768x768 .f32) (b : Fin 32) (n d : Fin 768) :
    Host.dotGeneral (F := Ideal) DG none L R (ix3 b n d) = ∑ m : Fin 768, L (ix3 b n m) * R (ix3 b m d) := by
  simp only [Host.dotGeneral]
  rw [Ideal.dotGeneral_apply, ← Equiv.sum_comp (contrEquiv1 DG 768 rfl rfl).symm]
  refine Finset.sum_congr rfl fun k _ => ?_
  have hk := contrEquiv1_symm_val DG 768 rfl rfl k
  have el : DG.lhsIdx (ix3 b n d) ((contrEquiv1 DG 768 rfl rfl).symm k) = ix3 b n k := funext fun a => Fin.ext (by
    match a with
    | ⟨0, _⟩ => exact lhsG_0 _ _
    | ⟨1, _⟩ => exact lhsG_1 _ _
    | ⟨2, _⟩ => exact (DG.lhsIdx_val_of_single rfl _ _).trans hk)
  have er : DG.rhsIdx (ix3 b n d) ((contrEquiv1 DG 768 rfl rfl).symm k) = ix3 b k d := funext fun a => Fin.ext (by
    match a with
    | ⟨0, _⟩ => exact rhsG_0 _ _
    | ⟨1, _⟩ => exact (DG.rhsIdx_val_of_single rfl _ _).trans hk
    | ⟨2, _⟩ => exact rhsG_2 _ _)
  rw [el, er]

/-! ## The whole term -/

theorem refPre_apply (X A : FVec Ideal S32x768x768 .f32) (W W1 : FVec Ideal S768x768 .f32) (b : Fin 32) (n d : Fin 768) :
    refPre (F := Ideal) X A W W1 (ix3 b n d) = proj X W b n d + gathered A X W1 b n d := by
  unfold refPre gathered
  rw [addf_apply, dotW_apply, dotG_apply]
  congr 1
  exact Finset.sum_congr rfl fun m _ => by rw [mulf_apply, spread_apply, refFactor_apply, dotW_apply]

/-- The reference's result term is the layer of the specification. -/
theorem refTerm_eq (X A : FVec Ideal S32x768x768 .f32) (W W1 : FVec Ideal S768x768 .f32) :
    refTerm (F := Ideal) X A W W1 = layer (g := 32) X A W W1 := by
  funext i
  obtain ⟨b, n, d, rfl⟩ : ∃ (b : Fin 32) (n d : Fin 768), i = ix3 b n d := ⟨i 0, i 1, i 2, eq_ix3 i⟩
  rw [layer_ix3]
  unfold refTerm refLeaky layerAt
  rw [select_apply, cmpf_apply, mulf_apply, broadcastInDim_scalar_apply, broadcastInDim_scalar_apply,
    constant_apply, constant_apply, refPre_apply]
  exact leaky_of_ge _

end Cert.ReferenceIdeal.RefValue

end
-- ==== Proof.lean ====
/-
  The certificate's claim: a Pallas kernel for one layer of a graph network — per graph, the edge weights normalised
  by their row sums, the messages `X · W₁` gathered along the normalised edges, the node's own transform `X · W` added,
  and a leaky rectifier — against its jnp reference.

  Over the extended reals both programs compute, at graph `b`, node `n`, feature `d`,
  `leaky (Σₖ X b n k · W k d + Σₘ (A b n m · r b n) · Σₖ X b m k · W₁ k d)` with `r b n` zero where row `n` of `A b`
  sums to zero and the reciprocal of the sum elsewhere (`Cert.Gnn.layer`).  The kernel rounds its matrix operands to
  bf16, which is the identity over the extended reals; its lane sum and its three matrix products into zero are the
  reference's host sum from zero and its three contractions, each read as the same finite sum; the kernel tests
  `0 < h` and the reference `0 ≤ h`, which differ only at `h = 0`, where both branches give zero.  No step moves a
  factor across a sum, so the inputs' finiteness is not used.

  The three frames are the two generated frame runs and the reference's run with its result dropped; the idealization
  rewrote nothing, so `preserves` is trivial; `algebraic` sets the kernel's run (`Cert.KernelIdeal.Layer.run`) beside
  the reference's (`Cert.ReferenceIdeal.RefRun.run`, with `Cert.ReferenceIdeal.RefValue.refTerm_eq`).
-/
import proofs.«157005_j1254130450915_1_alg».proof.Defs
import proofs.«157005_j1254130450915_1_alg».proof.Proof.Gen.Kernel
import proofs.«157005_j1254130450915_1_alg».proof.Proof.Gen.Kernel.Skeleton
import proofs.«157005_j1254130450915_1_alg».proof.Proof.Gen.Kernel.Launch
import proofs.«157005_j1254130450915_1_alg».proof.Proof.Gen.Kernel.Points
import proofs.«157005_j1254130450915_1_alg».proof.Proof.Gen.Kernel.Frame
import proofs.«157005_j1254130450915_1_alg».proof.Proof.Gen.KernelIdeal
import proofs.«157005_j1254130450915_1_alg».proof.Proof.Gen.KernelIdeal.Skeleton
import proofs.«157005_j1254130450915_1_alg».proof.Proof.Gen.KernelIdeal.Launch
import proofs.«157005_j1254130450915_1_alg».proof.Proof.Gen.KernelIdeal.Points
import proofs.«157005_j1254130450915_1_alg».proof.Proof.Gen.KernelIdeal.Frame
import proofs.«157005_j1254130450915_1_alg».proof.Proof.Gen.KernelIdeal.Value
import proofs.«157005_j1254130450915_1_alg».proof.Proof.Gen.ReferenceIdeal
import proofs.«157005_j1254130450915_1_alg».proof.Proof.Gen.Pre_finite_inputs
import proofs.«157005_j1254130450915_1_alg».proof.Proof.GnnKernelValue
import proofs.«157005_j1254130450915_1_alg».proof.Proof.GnnRefRun
import proofs.«157005_j1254130450915_1_alg».proof.Proof.GnnRefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

/-- Both runs end with the result at the layer of the arguments, which agree. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2]
  exact Cert.ReferenceIdeal.RefValue.refTerm_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
